-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x1024 : Shape := ⟨3, ![4, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x4096x8 : Shape := ⟨3, ![4, 4096, 8]⟩
abbrev S16384x8 : Shape := ⟨2, ![16384, 8]⟩
abbrev S1x8 : Shape := ⟨2, ![1, 8]⟩
abbrev S8x4096 : Shape := ⟨2, ![8, 4096]⟩
abbrev S4096x1024 : Shape := ⟨2, ![4096, 1024]⟩
abbrev S1x4096 : Shape := ⟨2, ![1, 4096]⟩
abbrev S1x1024 : Shape := ⟨2, ![1, 1024]⟩
abbrev S16384x1024 : Shape := ⟨2, ![16384, 1024]⟩
abbrev S512x8 : Shape := ⟨2, ![512, 8]⟩
abbrev S512x1024 : Shape := ⟨2, ![512, 1024]⟩
abbrev S512x4096 : Shape := ⟨2, ![512, 4096]⟩
abbrev S512x1 : Shape := ⟨2, ![512, 1]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x4096x8, .f32⟩
  | .hbm, ⟨7, _⟩ => ⟨S16384x8, .f32⟩
  | .hbm, ⟨8, _⟩ => ⟨S8, .f32⟩
  | .hbm, ⟨9, _⟩ => ⟨S1x8, .f32⟩
  | .hbm, ⟨10, _⟩ => ⟨S8x4096, .f32⟩
  | .hbm, ⟨11, _⟩ => ⟨S4096x1024, .f32⟩
  | .hbm, ⟨12, _⟩ => ⟨S4096x1024, .bf16⟩
  | .hbm, ⟨13, _⟩ => ⟨S1x4096, .f32⟩
  | .hbm, ⟨14, _⟩ => ⟨S1x1024, .f32⟩
  | .hbm, ⟨15, _⟩ => ⟨S16384x1024, .f32⟩
  | .hbm, ⟨16, _⟩ => ⟨S4x4096x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x4096, .f32⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4x4096x1024_S4x4096x8_0_0_0 : S4x4096x1024.Slices ![0, 0, 0] S4x4096x8
  shapeCasts_S4x4096x8_S16384x8 : S4x4096x8.ShapeCasts S16384x8
  shapeCasts_S8_S1x8 : S8.ShapeCasts S1x8
  transposes_S4096x8_S8x4096_1_0 : S4096x8.Transposes [1, 0] S8x4096
  transposes_S1024x4096_S4096x1024_1_0 : S1024x4096.Transposes [1, 0] S4096x1024
  bitsLt_bf16_f32 : FTy.bits .bf16 < FTy.bits .f32
  shapeCasts_S4096_S1x4096 : S4096.ShapeCasts S1x4096
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x8_o0_0_S512x1 : S512x8.Slices ![0, 0] S512x1
  inb_S8x4096_S1x4096_0_0 : ∀ a, (![0, 0] : Fin 2 → Nat) a + S1x4096.size a ≤ S8x4096.size a
  broadcasts_S512x1_S512x4096 : S512x1.Broadcasts S512x4096
  slices_S512x8_o0_1_S512x1 : S512x8.Slices ![0, 1] S512x1
  inb_S8x4096_S1x4096_1_0 : ∀ a, (![1, 0] : Fin 2 → Nat) a + S1x4096.size a ≤ S8x4096.size a
  slices_S512x8_o0_2_S512x1 : S512x8.Slices ![0, 2] S512x1
  inb_S8x4096_S1x4096_2_0 : ∀ a, (![2, 0] : Fin 2 → Nat) a + S1x4096.size a ≤ S8x4096.size a
  slices_S512x8_o0_3_S512x1 : S512x8.Slices ![0, 3] S512x1
  inb_S8x4096_S1x4096_3_0 : ∀ a, (![3, 0] : Fin 2 → Nat) a + S1x4096.size a ≤ S8x4096.size a
  slices_S512x8_o0_4_S512x1 : S512x8.Slices ![0, 4] S512x1
  inb_S8x4096_S1x4096_4_0 : ∀ a, (![4, 0] : Fin 2 → Nat) a + S1x4096.size a ≤ S8x4096.size a
  slices_S512x8_o0_5_S512x1 : S512x8.Slices ![0, 5] S512x1
  inb_S8x4096_S1x4096_5_0 : ∀ a, (![5, 0] : Fin 2 → Nat) a + S1x4096.size a ≤ S8x4096.size a
  slices_S512x8_o0_6_S512x1 : S512x8.Slices ![0, 6] S512x1
  inb_S8x4096_S1x4096_6_0 : ∀ a, (![6, 0] : Fin 2 → Nat) a + S1x4096.size a ≤ S8x4096.size a
  slices_S512x8_o0_7_S512x1 : S512x8.Slices ![0, 7] S512x1
  inb_S8x4096_S1x4096_7_0 : ∀ a, (![7, 0] : Fin 2 → Nat) a + S1x4096.size a ≤ S8x4096.size a
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S4x4096x1024 : S16384x1024.ShapeCasts S4x4096x1024
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x4096x8 : Shape := ⟨3, ![4, 4096, 8]⟩
abbrev S1x1x8 : Shape := ⟨3, ![1, 1, 8]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x4096x8, .f32⟩
  | .hbm, ⟨7, _⟩ => ⟨S4x4096x8, .f32⟩
  | .hbm, ⟨8, _⟩ => ⟨S8, .f32⟩
  | .hbm, ⟨9, _⟩ => ⟨S1x1x8, .f32⟩
  | .hbm, ⟨10, _⟩ => ⟨S4x4096x8, .f32⟩
  | .hbm, ⟨11, _⟩ => ⟨S4x4096x8, .f32⟩
  | .hbm, ⟨12, _⟩ => ⟨S4x4096x4096, .f32⟩
  | .hbm, ⟨13, _⟩ => ⟨S1x1x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The feed-forward block as mathematics, over the extended reals.

  One token has eight angles. Each angle's cosine is scaled by a per-wire factor, giving eight numbers `q k`.
  A hidden unit `f` takes the affine form `∑ k, q k * w k + b` of them and clamps it below at zero (`hid`);
  an output `e` is the affine form `∑ f, h f * w f + b` of the 4096 hidden units (`outp`). The whole
  result, `G`, is `outp` of `hid` of the scaled cosines, index by index.

  A program may build the hidden unit's affine form by starting from the bias and adding the eight
  products one at a time. Addition on the extended reals is commutative and associative (it is a commutative
  monoid, infinities included), so that chain is the sum plus the bias: `hid_chain`. No finiteness is needed.
-/
import Idealize.ShloMosaic.PureOps.Ideal
import Idealize.ShloMosaic.Lib.ValueIdx

open scoped BigOperators

noncomputable section

namespace Cert.Ffn

open Idealize.ShloMosaic Idealize.ShloMosaic.ValueIdx

/-- A hidden unit: the eight scaled cosines `q` against the unit's eight weights `w`, plus its bias, clamped at zero. -/
def hid (q w : Fin 8 → EReal) (b : EReal) : EReal := max ((∑ k : Fin 8, q k * w k) + b) 0

/-- An output: the 4096 hidden units `h` against the output's weights `w`, plus its bias. -/
def outp (h w : Fin 4096 → EReal) (b : EReal) : EReal := (∑ f : Fin 4096, h f * w f) + b

/-- The affine form built from the bias by adding the eight products in order is the sum plus the bias. -/
theorem chain_eq_sum (t : Fin 8 → EReal) (b : EReal) :
    b + t 0 + t 1 + t 2 + t 3 + t 4 + t 5 + t 6 + t 7 = (∑ k : Fin 8, t k) + b := by
  rw [Fin.sum_univ_eight]
  abel

/-- So a hidden unit computed by that chain and then clamped is `hid`. -/
theorem hid_chain (q w : Fin 8 → EReal) (b : EReal) :
    max (b + q 0 * w 0 + q 1 * w 1 + q 2 * w 2 + q 3 * w 3 + q 4 * w 4 + q 5 * w 5 + q 6 * w 6 + q 7 * w 7) 0
      = hid q w b := by
  unfold hid
  rw [chain_eq_sum (fun k => q k * w k) b]

/-- Feature `k` of a token, among the first eight of its 1024. -/
abbrev feat (k : Fin 8) : Fin 1024 := ⟨k.val, Nat.lt_of_lt_of_le k.isLt (by decide)⟩

/-- The result at batch `b`, position `s`, output `e`: from the input `x`, the wire angles `th`, the two weight
    matrices and the two biases. -/
def Gc (x : (⟨3, ![4, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 4) (s : Fin 4096) (e : Fin 1024) : EReal :=
  outp (fun f => hid (fun k => Ideal.cos (x (ix3 b s (feat k))) * Ideal.cos (th (ix1 k))) (fun k => W1 (ix2 f k)) (b1 (ix1 f)))
    (fun f => W2 (ix2 e f)) (b2 (ix1 e))

/-- The whole result array. -/
def G (x : (⟨3, ![4, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![4, 4096, 1024]⟩ : Shape).Idx → EReal :=
  fun i => Gc x th W1 b1 W2 b2 (i 0) (i 1) (i 2)

theorem G_ix3 (x : (⟨3, ![4, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 4) (s : Fin 4096) (e : Fin 1024) :
    G x th W1 b1 W2 b2 (ix3 b s e) = Gc x th W1 b1 W2 b2 b s e := rfl

/-- The same result with batch and position flattened into one token index `r = b * 4096 + s`. -/
def Gflat (x : (⟨3, ![4, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨2, ![16384, 1024]⟩ : Shape).Idx → EReal :=
  fun j => Gc x th W1 b1 W2 b2 ⟨(j 0).val / 4096, by have h : (j 0).val < 16384 := (j 0).isLt; omega⟩
    ⟨(j 0).val % 4096, Nat.mod_lt _ (by decide)⟩ (j 1)

/-- At token `r = b * 4096 + s` the flattened result is the result at `(b, s)`: quotient and remainder by 4096 recover them. -/
theorem Gflat_ix2 (x : (⟨3, ![4, 4096, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (r : Fin 16384) (e : Fin 1024) (b : Fin 4) (s : Fin 4096) (hr : r.val = b.val * 4096 + s.val) :
    Gflat x th W1 b1 W2 b2 (ix2 r e) = Gc x th W1 b1 W2 b2 b s e := by
  have hs : s.val < 4096 := s.isLt
  have hb : (⟨r.val / 4096, by have h : r.val < 16384 := r.isLt; omega⟩ : Fin 4) = b := Fin.ext (by show r.val / 4096 = b.val; omega)
  have hm : (⟨r.val % 4096, Nat.mod_lt _ (by decide)⟩ : Fin 4096) = s := Fin.ext (by show r.val % 4096 = s.val; omega)
  show Gc x th W1 b1 W2 b2 ⟨r.val / 4096, _⟩ ⟨r.val % 4096, _⟩ e = _
  rw [hb, hm]

end Cert.Ffn

end
-- ==== Proof.RefIsG.lean ====
/-
  The reference program, read index by index, computes `Cert.Ffn.G`.

  The reference keeps the token's batch and position as two axes. At `(b, s, e)` its last stage adds the output
  bias at `e` to a contraction over the 4096 hidden units at `(b, s, ·)` against row `e` of the second weight matrix;
  each hidden unit is the maximum with zero of a contraction over the eight scaled cosines at `(b, s, ·)` against
  row `f` of the first weight matrix, plus the hidden bias at `f`; a scaled cosine is the cosine of the token's
  `k`-th feature times the cosine of the `k`-th wire angle. That is `outp` of `hid`, term for term.
-/
import proofs.«151217_j65481071407412_2_alg».proof.Proof.Gen.ReferenceIdeal.Read
import proofs.«151217_j65481071407412_2_alg».proof.Proof.Spec

open scoped BigOperators

noncomputable section

namespace Cert.Ffn.Ref

open Idealize.ShloMosaic Idealize.ShloMosaic.ValueIdx Cert.ReferenceIdeal Cert.ReferenceIdeal.Read Cert.Ffn

variable (x : (⟨S4x4096x1024, .f32⟩ : BufTy).Contents (Elt Ideal)) (th : (⟨S8, .f32⟩ : BufTy).Contents (Elt Ideal))
  (W1 : (⟨S4096x8, .f32⟩ : BufTy).Contents (Elt Ideal)) (b1 : (⟨S4096, .f32⟩ : BufTy).Contents (Elt Ideal))
  (W2 : (⟨S1024x4096, .f32⟩ : BufTy).Contents (Elt Ideal)) (b2 : (⟨S1024, .f32⟩ : BufTy).Contents (Elt Ideal))

/-- The scaled cosine the reference forms at `(b, s, k)`. -/
theorem scaled_apply (b : Fin 4) (s : Fin 4096) (k : Fin 8) :
    val_main_v5 (F := Ideal) x th (ix3 b s k) = Ideal.cos (x (ix3 b s (feat k))) * Ideal.cos (th (ix1 k)) := by
  rw [val_main_v5_apply, val_main_v1_apply, val_main_v0_apply, val_main_v4_apply, val_main_v3_apply, val_main_v2_apply]
  have e0 : idx_main_v0 (ix3 b s k) = ix3 b s (feat k) := funext fun a => Fin.ext (by
    match a with | ⟨0, _⟩ => rfl | ⟨1, _⟩ => rfl | ⟨2, _⟩ => rfl)
  have e1 : idx_main_v3 (idx_main_v4 (ix3 b s k)) = ix1 k := funext fun a => Fin.ext (by
    match a with | ⟨0, _⟩ => rfl)
  rw [e0, e1]
  rfl

/-- The hidden unit the reference forms at `(b, s, f)`. -/
theorem hidden_apply (b : Fin 4) (s : Fin 4096) (f : Fin 4096) :
    val_main_v10 (F := Ideal) x th W1 b1 (ix3 b s f)
      = hid (fun k => Ideal.cos (x (ix3 b s (feat k))) * Ideal.cos (th (ix1 k))) (fun k => W1 (ix2 f k)) (b1 (ix1 f)) := by
  rw [val_main_v10_apply, val_main_v9_apply, val_main_v6_apply, val_main_v8_apply, val_main_v7_apply,
    val_main_call0_v0_apply, val_main_call0_cst_apply]
  have e7 : idx_main_v7 (idx_main_v8 (ix3 b s f)) = ix1 f := funext fun a => Fin.ext (by
    match a with | ⟨0, _⟩ => rfl)
  have el : ∀ k : Fin 8, lidx_main_v6 (ix3 b s f) k = ix3 b s k := fun k => funext fun a => Fin.ext (by
    match a with | ⟨0, _⟩ => rfl | ⟨1, _⟩ => rfl | ⟨2, _⟩ => rfl)
  have er : ∀ k : Fin 8, ridx_main_v6 (ix3 b s f) k = ix2 f k := fun k => funext fun a => Fin.ext (by
    match a with | ⟨0, _⟩ => rfl | ⟨1, _⟩ => rfl)
  rw [e7]
  simp only [el, er, scaled_apply]
  show max ((∑ k : Fin 8, _) + b1 (ix1 f)) (Ideal.ofBits .f32 0x00000000#32) = _
  rw [Ideal.ofBits_zero_f32]
  rfl

/-- The reference's result is `G` of its six arguments. -/
theorem result_eq : val_main_v14 (F := Ideal) x th W1 b1 W2 b2 = G x th W1 b1 W2 b2 := by
  funext i
  obtain ⟨b, s, e, rfl⟩ : ∃ (b : Fin 4) (s : Fin 4096) (e : Fin 1024), i = ix3 b s e := ⟨i 0, i 1, i 2, eq_ix3 i⟩
  rw [G_ix3, val_main_v14_apply, val_main_v11_apply, val_main_v13_apply, val_main_v12_apply]
  have e12 : idx_main_v12 (idx_main_v13 (ix3 b s e)) = ix1 e := funext fun a => Fin.ext (by
    match a with | ⟨0, _⟩ => rfl)
  have el : ∀ f : Fin 4096, lidx_main_v11 (ix3 b s e) f = ix3 b s f := fun f => funext fun a => Fin.ext (by
    match a with | ⟨0, _⟩ => rfl | ⟨1, _⟩ => rfl | ⟨2, _⟩ => rfl)
  have er : ∀ f : Fin 4096, ridx_main_v11 (ix3 b s e) f = ix2 e f := fun f => funext fun a => Fin.ext (by
    match a with | ⟨0, _⟩ => rfl | ⟨1, _⟩ => rfl)
  rw [e12]
  simp only [el, er, hidden_apply]
  rfl

end Cert.Ffn.Ref

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibLanes.lean ====
/-
  A matrix's column, or row, cut out with its unit axis kept and broadcast back over a block, read at an index given
  by coordinates, at any extents: column `o` of an `[a, n]` matrix as `[a, 1]` spread over `[a, b]` reads at `(p, c)`
  the matrix at `(p, o)`; row `o` of an `[n, b]` matrix as `[1, b]` spread over `[a, b]` reads at `(p, c)` the matrix at
  `(o, c)`. These are the two factors of an outer product written with broadcasts.
-/
import Idealize.ShloMosaic.Lib.Pipeline.Value
import Idealize.ShloMosaic.Lib.ValueIdx
import Idealize.ShloMosaic.Lib.ValueLayout
import proofs.«151217_j65481071407412_2_alg».proof.Proof.LibColumns

namespace Cert.Lib.Lanes

open Idealize.ShloMosaic Idealize.ShloMosaic.ValueIdx

variable {α : Type}

/-- Column `o` of an `[a, n]` matrix, cut out as `[a, 1]` and broadcast along its rows to `[a, b]`, reads at `(p, c)`
    the matrix at `(p, d)`, `d` the column `o`. -/
theorem colSlice_broadcast_apply {a n b : ℕ} (o : ℕ) (L : (⟨2, ![a, n]⟩ : Shape).Idx → α)
    (h₁ : (⟨2, ![a, n]⟩ : Shape).Slices ![0, o] ⟨2, ![a, 1]⟩)
    (h₂ : (⟨2, ![a, 1]⟩ : Shape).Broadcasts ⟨2, ![a, b]⟩) (p : Fin a) (c : Fin b) (d : Fin n) (hd : d.val = o) :
    broadcastTo ⟨2, ![a, b]⟩ (extractStridedSlice ⟨2, ![a, 1]⟩ ![0, o] L h₁) h₂ (ix2 p c) = L (ix2 p d) := by
  rw [Cert.Lib.Columns.broadcastTo_a1_ab_apply]
  exact slice2_axis1_apply o L h₁ p (0 : Fin 1) d (hd.trans (Nat.add_zero o).symm)

/-- Row `o` of an `[n, b]` matrix, cut out as `[1, b]` and broadcast over `a` rows to `[a, b]`, reads at `(p, c)` the
    matrix at `(d, c)`, `d` the row `o`. -/
theorem rowSlice_broadcast_apply {n b a : ℕ} (o : ℕ) (T : (⟨2, ![n, b]⟩ : Shape).Idx → α)
    (h₁ : (⟨2, ![n, b]⟩ : Shape).Slices ![o, 0] ⟨2, ![1, b]⟩)
    (h₂ : (⟨2, ![1, b]⟩ : Shape).Broadcasts ⟨2, ![a, b]⟩) (p : Fin a) (c : Fin b) (d : Fin n) (hd : d.val = o) :
    broadcastTo ⟨2, ![a, b]⟩ (extractStridedSlice ⟨2, ![1, b]⟩ ![o, 0] T h₁) h₂ (ix2 p c) = T (ix2 d c) := by
  rw [broadcastTo_1b_ab_apply]
  exact slice2_axis0_apply o T h₁ (0 : Fin 1) c d (hd.trans (Nat.add_zero o).symm)

end Cert.Lib.Lanes
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.Body.lean ====
/-
  The kernel body's arithmetic, read at one entry.

  A body call works on 512 tokens. It forms the scaled cosines `q (p, k) = cos (x (p, k)) * c (0, k)` of its block
  (`scaled_apply`); then, for hidden unit `f`, starts from the hidden bias and adds the eight products
  `q (p, k) * w (k, f)` one row `k` of the first weight block at a time — rows 0 to 3 in the first stretch
  (`chain4_apply`), row 4's two factors carried over (`row_apply`, `col4_apply`), rows 5 to 7 in the second —; clamps
  at zero; and contracts the 4096 clamped units against column `e` of the second weight block, adding the output
  bias at `e` (`out_apply`). A matrix product into a zero accumulator is, at `(p, e)`, the sum over the contracted
  coordinate of the operands' products; a column `[512, 1]` of the scaled cosines spread over 4096 lanes reads the
  column's entry of the row; a row `[1, n]` spread over 512 rows reads the row's entry of the lane.
-/
import proofs.«151217_j65481071407412_2_alg».proof.Proof.Gen.KernelIdeal.Skeleton
import proofs.«151217_j65481071407412_2_alg».proof.Proof.LibLanes
import proofs.«151217_j65481071407412_2_alg».proof.Proof.LibMatmul
import proofs.«151217_j65481071407412_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.Ffn.Body

open Idealize.ShloMosaic Idealize.ShloMosaic.ValueIdx Cert.KernelIdeal Cert.KernelIdeal.Gen Cert.Ffn

/-- The scaled cosines of the block. -/
theorem scaled_apply (v0 : Vec Ideal S512x8 .f32) (v2 : Vec Ideal S1x8 .f32) (p : Fin 512) (k : Fin 8) :
    k0_pay2 (F := Ideal) v0 v2 (ix2 p k) = Ideal.cos (v0 (ix2 p k)) * v2 (ix2 (0 : Fin 1) k) := by
  unfold k0_pay2
  rw [mulf_apply, shapeCast_self, shapeCast_self, broadcastTo_1b_ab_apply]
  rfl

/-- A row of the first weight block passes through its cast unchanged. -/
theorem row_apply (v40 : Vec Ideal S1x4096 .f32) : k0_pay4 (F := Ideal) v40 = v40 := by
  unfold k0_pay4
  exact shapeCast_self _ _

/-- Column 4 of the scaled cosines spread over the lanes. -/
theorem col4_apply (v0 : Vec Ideal S512x8 .f32) (v2 : Vec Ideal S1x8 .f32) (p : Fin 512) (f : Fin 4096) :
    k0_pay5 (F := Ideal) v0 v2 (ix2 p f) = k0_pay2 (F := Ideal) v0 v2 (ix2 p (4 : Fin 8)) := by
  unfold k0_pay5
  exact Cert.Lib.Lanes.colSlice_broadcast_apply 4 _ _ _ p f (4 : Fin 8) rfl

/-- The first stretch of the chain: the bias and the products of rows 0 to 3. -/
theorem chain4_apply (v0 : Vec Ideal S512x8 .f32) (v2 : Vec Ideal S1x8 .f32) (v7 v12 v19 v26 v33 : Vec Ideal S1x4096 .f32)
    (p : Fin 512) (f : Fin 4096) :
    k0_pay3 (F := Ideal) v0 v2 v7 v12 v19 v26 v33 (ix2 p f)
      = v7 (ix2 (0 : Fin 1) f) + k0_pay2 (F := Ideal) v0 v2 (ix2 p (0 : Fin 8)) * v12 (ix2 (0 : Fin 1) f)
        + k0_pay2 (F := Ideal) v0 v2 (ix2 p (1 : Fin 8)) * v19 (ix2 (0 : Fin 1) f)
        + k0_pay2 (F := Ideal) v0 v2 (ix2 p (2 : Fin 8)) * v26 (ix2 (0 : Fin 1) f)
        + k0_pay2 (F := Ideal) v0 v2 (ix2 p (3 : Fin 8)) * v33 (ix2 (0 : Fin 1) f) := by
  unfold k0_pay3
  simp only [addf_apply, mulf_apply, shapeCast_self, broadcastTo_1b_ab_apply]
  rw [Cert.Lib.Lanes.colSlice_broadcast_apply 0 _ _ _ p f (0 : Fin 8) rfl,
    Cert.Lib.Lanes.colSlice_broadcast_apply 1 _ _ _ p f (1 : Fin 8) rfl,
    Cert.Lib.Lanes.colSlice_broadcast_apply 2 _ _ _ p f (2 : Fin 8) rfl,
    Cert.Lib.Lanes.colSlice_broadcast_apply 3 _ _ _ p f (3 : Fin 8) rfl]

/-- The product of a `[512, 4096]` block with a `[4096, 1024]` block into a zero accumulator, at `(p, e)`: the
    kernel's product is the plain one (left operand contracted on its second axis, right on its first). -/
theorem matmul_zero_apply (L : FVec Ideal S512x4096 .bf16) (R : FVec Ideal S4096x1024 .bf16) (p : Fin 512) (e : Fin 1024) :
    matmul dot_S512x4096_S4096x1024_S512x1024_1_0_0_1_n_n none L R (constant S512x1024 .f32 0x00000000#32) (ix2 p e)
      = ∑ f : Fin 4096, L (ix2 p f) * R (ix2 f e) :=
  Cert.Lib.Matmul.matmul_plain_zero_apply (M := 512) (K := 4096) (N := 1024) none L R p e

/-- The second stretch, the clamp, the contraction and the output bias. -/
theorem out_apply (v6 : FVec Ideal S512x8 .f32) (v38 : FVec Ideal S512x4096 .f32) (v41 : FVec Ideal S1x4096 .f32)
    (v42 : FVec Ideal S512x4096 .f32) (v47 v54 v61 : Vec Ideal S1x4096 .f32) (v70 : Vec Ideal S4096x1024 .bf16)
    (v73 : Vec Ideal S1x1024 .f32) (p : Fin 512) (e : Fin 1024) :
    k0_pay1 (F := Ideal) v6 v38 v41 v42 v47 v54 v61 v70 v73 (ix2 p e)
      = (∑ f : Fin 4096,
          max (v38 (ix2 p f) + v42 (ix2 p f) * v41 (ix2 (0 : Fin 1) f) + v6 (ix2 p (5 : Fin 8)) * v47 (ix2 (0 : Fin 1) f)
            + v6 (ix2 p (6 : Fin 8)) * v54 (ix2 (0 : Fin 1) f) + v6 (ix2 p (7 : Fin 8)) * v61 (ix2 (0 : Fin 1) f)) 0
          * v70 (ix2 f e))
        + v73 (ix2 (0 : Fin 1) e) := by
  unfold k0_pay1
  simp only [shapeCast_self]
  rw [addf_apply, matmul_zero_apply, broadcastTo_1b_ab_apply]
  congr 1
  refine Finset.sum_congr rfl fun f _ => ?_
  congr 1
  rw [truncf_apply, maximumf_apply, broadcast_apply]
  refine congrArg₂ max ?_ Ideal.ofBits_zero_f32
  simp only [addf_apply, mulf_apply, broadcastTo_1b_ab_apply]
  rw [Cert.Lib.Lanes.colSlice_broadcast_apply 5 _ _ _ p f (5 : Fin 8) rfl,
    Cert.Lib.Lanes.colSlice_broadcast_apply 6 _ _ _ p f (6 : Fin 8) rfl,
    Cert.Lib.Lanes.colSlice_broadcast_apply 7 _ _ _ p f (7 : Fin 8) rfl]

end Cert.Ffn.Body

end
-- ==== Proof.HostIn.lean ====
/-
  What the region finds in its six input arrays, read at an index.

  Before the kernel is launched the program re-lays its arguments: the first eight features of every token are cut
  out of the input and the batch and position axes flattened into one token axis of 16384 (token `r = b * 4096 + s`);
  the cosine of the eight wire angles is taken and given a leading unit axis; the two weight matrices are
  transposed (the second also changes its float format, which on the extended reals changes nothing); the two
  biases are given a leading unit axis. Each lemma reads one of these arrays at coordinates as an entry of an argument.
-/
import proofs.«151217_j65481071407412_2_alg».proof.Proof.Gen.KernelIdeal.Frame
import proofs.«151217_j65481071407412_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.Ffn.HostIn

open Idealize.ShloMosaic Idealize.ShloMosaic.TcCoe Idealize.ShloMosaic.ValueIdx Idealize.SL.Sem Idealize.ShloMosaic.StableHlo
open Cert.KernelIdeal Cert.KernelIdeal.Gen Cert.Ffn

variable (m : (ℓ : Loc nD τ sig) → Buf (Elt Ideal) ℓ)

/-! ## The arrays as terms of the arguments -/

theorem tokens_eq (c : Dev nD) :
    (V m c main_v1 : S16384x8.Idx → EReal)
      = shapeCast S16384x8 (extractStridedSlice S4x4096x8 ![0, 0, 0] (m ((c : Thread nD τ).loc main_arg0)) slices_S4x4096x1024_S4x4096x8_0_0_0) shapeCasts_S4x4096x8_S16384x8 := by
  show StableHlo.after hostOps0 (fun b => m (c, b)) (Proc.devRef .tc main_v1) = _
  after_results <;> rfl

theorem wires_eq (c : Dev nD) :
    (V m c main_v3 : S1x8.Idx → EReal)
      = shapeCast S1x8 (Host.cos (F := Ideal) (s := S8) (φ := .f32) (m ((c : Thread nD τ).loc main_arg1))) shapeCasts_S8_S1x8 := by
  show StableHlo.after hostOps0 (fun b => m (c, b)) (Proc.devRef .tc main_v3) = _
  after_results <;> rfl

theorem w1_eq (c : Dev nD) :
    (V m c main_v4 : S8x4096.Idx → EReal)
      = transpose S8x4096 [1, 0] (m ((c : Thread nD τ).loc main_arg2)) transposes_S4096x8_S8x4096_1_0 := by
  show StableHlo.after hostOps0 (fun b => m (c, b)) (Proc.devRef .tc main_v4) = _
  after_results <;> rfl

theorem b1_eq (c : Dev nD) :
    (V m c main_v7 : S1x4096.Idx → EReal)
      = shapeCast S1x4096 (m ((c : Thread nD τ).loc main_arg3)) shapeCasts_S4096_S1x4096 := by
  show StableHlo.after hostOps0 (fun b => m (c, b)) (Proc.devRef .tc main_v7) = _
  after_results <;> rfl

theorem w2_eq (c : Dev nD) :
    (V m c main_v6 : S4096x1024.Idx → EReal)
      = truncf (F := Ideal) (s := S4096x1024) (φ := .f32) .bf16 (transpose S4096x1024 [1, 0] (m ((c : Thread nD τ).loc main_arg4)) transposes_S1024x4096_S4096x1024_1_0) bitsLt_bf16_f32 := by
  show StableHlo.after hostOps0 (fun b => m (c, b)) (Proc.devRef .tc main_v6) = _
  after_results <;> rfl

theorem b2_eq (c : Dev nD) :
    (V m c main_v8 : S1x1024.Idx → EReal)
      = shapeCast S1x1024 (m ((c : Thread nD τ).loc main_arg5)) shapeCasts_S1024_S1x1024 := by
  show StableHlo.after hostOps0 (fun b => m (c, b)) (Proc.devRef .tc main_v8) = _
  after_results <;> rfl

/-! ## Read at coordinates -/

/-- Token `r = b * 4096 + s`, feature `k`: the input at `(b, s, k)`. -/
theorem tokens_apply (c : Dev nD) (b : Fin 4) (s : Fin 4096) (r : Fin 16384) (hr : r.val = b.val * 4096 + s.val) (k : Fin 8) :
    (V m c main_v1 : S16384x8.Idx → EReal) (ix2 r k)
      = (m ((c : Thread nD τ).loc main_arg0) : S4x4096x1024.Idx → EReal) (ix3 b s (feat k)) := by
  rw [tokens_eq]
  refine (shapeCast_apply _ shapeCasts_S4x4096x8_S16384x8 (ix2 r k) (ix3 b s k) ?_).trans ?_
  · rw [Shape.rowMajor_val_two, Shape.rowMajor_val_three]
    show (b.val * 4096 + s.val) * 8 + k.val = r.val * 8 + k.val
    rw [hr]
  · exact extractStridedSlice_apply _ _ _ (ix3 b s k) (ix3 b s (feat k)) (fun a => by
      match a with
      | ⟨0, _⟩ => exact (Nat.zero_add _).symm
      | ⟨1, _⟩ => exact (Nat.zero_add _).symm
      | ⟨2, _⟩ => exact (Nat.zero_add _).symm)

/-- The cosine of wire angle `k`. -/
theorem wires_apply (c : Dev nD) (k : Fin 8) :
    (V m c main_v3 : S1x8.Idx → EReal) (ix2 (0 : Fin 1) k)
      = Ideal.cos ((m ((c : Thread nD τ).loc main_arg1) : S8.Idx → EReal) (ix1 k)) := by
  rw [wires_eq, shapeCast_a_1a_apply]
  rfl

/-- Row `k`, lane `f` of the transposed first weight matrix. -/
theorem w1_apply (c : Dev nD) (k : Fin 8) (f : Fin 4096) :
    (V m c main_v4 : S8x4096.Idx → EReal) (ix2 k f)
      = (m ((c : Thread nD τ).loc main_arg2) : S4096x8.Idx → EReal) (ix2 f k) := by
  rw [w1_eq, transpose_ix2_apply]

/-- The hidden bias at `f`. -/
theorem b1_apply (c : Dev nD) (f : Fin 4096) :
    (V m c main_v7 : S1x4096.Idx → EReal) (ix2 (0 : Fin 1) f)
      = (m ((c : Thread nD τ).loc main_arg3) : S4096.Idx → EReal) (ix1 f) := by
  rw [b1_eq, shapeCast_a_1a_apply]

/-- Row `f`, column `e` of the transposed second weight matrix. -/
theorem w2_apply (c : Dev nD) (f : Fin 4096) (e : Fin 1024) :
    (V m c main_v6 : S4096x1024.Idx → EReal) (ix2 f e)
      = (m ((c : Thread nD τ).loc main_arg4) : S1024x4096.Idx → EReal) (ix2 e f) := by
  rw [w2_eq, truncf_apply, transpose_ix2_apply]

/-- The output bias at `e`. -/
theorem b2_apply (c : Dev nD) (e : Fin 1024) :
    (V m c main_v8 : S1x1024.Idx → EReal) (ix2 (0 : Fin 1) e)
      = (m ((c : Thread nD τ).loc main_arg5) : S1024.Idx → EReal) (ix1 e) := by
  rw [b2_eq, shapeCast_a_1a_apply]

end Cert.Ffn.HostIn

end
-- ==== Proof.Blocks.lean ====
/-
  From the body's blocks to the whole output array.

  Grid point `t` works on tokens `512 t … 512 t + 511`: its first input block is those rows of the token array, and its
  output block those rows of the output array; the other five input blocks are whole arrays, the same at every
  point. So what point `t` writes back at `(p, e)` is the flattened result at token `512 t + p` (`flushed_eq`), and as
  every token lies in exactly the block of point `r / 512`, the 32 blocks cover the array, which therefore ends
  holding the flattened result (`final`).
-/
import proofs.«151217_j65481071407412_2_alg».proof.Proof.Gen.KernelIdeal.Frame
import proofs.«151217_j65481071407412_2_alg».proof.Proof.Spec
import proofs.«151217_j65481071407412_2_alg».proof.Proof.Body
import proofs.«151217_j65481071407412_2_alg».proof.Proof.HostIn
import Idealize.ShloMosaic.Lib.Pipeline.Value
import Idealize.ShloMosaic.Lib.ValueIdx

set_option maxRecDepth 16384

open scoped BigOperators

noncomputable section

namespace Cert.Ffn.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Ffn

/-! ## One body call, from its six blocks -/

theorem hz : (![0, 0] : Fin 2 → Nat) = fun _ => 0 := funext fun a => by fin_cases a <;> rfl

/-- Row `k` of the first weight block, loaded as a `[1, 4096]` vector, at lane `f`. -/
theorem ld_row (x2 : Vec Ideal S8x4096 .f32) (o : ℕ)
    (inb : ∀ a, (![o, 0] : Fin 2 → Nat) a + S1x4096.size a ≤ S8x4096.size a) (k : Fin 8) (hk : k.val = o) (f : Fin 4096) :
    View.ld (Val := Elt Ideal) (e' := .f32) x2 (Rect.unit (s := S8x4096) ![o, 0] S1x4096.size inb) (ix2 (0 : Fin 1) f) = x2 (ix2 k f) := by
  show x2 ((Rect.unit (s := S8x4096) ![o, 0] S1x4096.size inb).idx (ix2 (0 : Fin 1) f)) = _
  refine congrArg x2 (funext fun a => Fin.ext ?_)
  match a with
  | ⟨0, _⟩ => show o + 1 * 0 = k.val; omega
  | ⟨1, _⟩ => show 0 + 1 * f.val = f.val; omega

/-- What one body call leaves at `(p, e)` of its output block, from its six input blocks. -/
theorem block_apply (x0 : Vec Ideal S512x8 .f32) (x1 : Vec Ideal S1x8 .f32) (x2 : Vec Ideal S8x4096 .f32)
    (x3 : Vec Ideal S1x4096 .f32) (x4 : Vec Ideal S4096x1024 .bf16) (x5 : Vec Ideal S1x1024 .f32) (p : Fin 512) (e : Fin 1024) :
    out0_6 (F := Ideal) x0 x1 x2 x3 x4 x5 (ix2 p e)
      = outp (fun f => hid (fun k => Ideal.cos (x0 (ix2 p k)) * x1 (ix2 (0 : Fin 1) k)) (fun k => x2 (ix2 k f)) (x3 (ix2 (0 : Fin 1) f)))
          (fun f => x4 (ix2 f e)) (x5 (ix2 (0 : Fin 1) e)) := by
  unfold out0_6
  rw [View.canon_unit_zero hz]
  simp only [View.ld_unit_zero (S := S512x8) hz, View.ld_unit_zero (S := S1x8) hz, View.ld_unit_zero (S := S1x4096) hz,
    View.ld_unit_zero (S := S4096x1024) hz, View.ld_unit_zero (S := S1x1024) hz]
  rw [Body.out_apply]
  unfold outp
  congr 1
  refine Finset.sum_congr rfl fun f _ => ?_
  congr 1
  rw [Body.chain4_apply, Body.col4_apply, Body.row_apply]
  simp only [Body.scaled_apply]
  rw [ld_row x2 0 _ (0 : Fin 8) rfl f, ld_row x2 1 _ (1 : Fin 8) rfl f, ld_row x2 2 _ (2 : Fin 8) rfl f,
    ld_row x2 3 _ (3 : Fin 8) rfl f, ld_row x2 4 _ (4 : Fin 8) rfl f, ld_row x2 5 _ (5 : Fin 8) rfl f,
    ld_row x2 6 _ (6 : Fin 8) rfl f, ld_row x2 7 _ (7 : Fin 8) rfl f]
  exact hid_chain (fun k => Ideal.cos (x0 (ix2 p k)) * x1 (ix2 (0 : Fin 1) k)) (fun k => x2 (ix2 k f)) (x3 (ix2 (0 : Fin 1) f))

/-! ## The windows' blocks as parts of their arrays -/

variable (m : (ℓ : Loc nD τ sig) → Buf (Elt Ideal) ℓ)

/-- The printed index maps over the grid: the token window and the output window move one block of rows per point,
    every other window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s token block is token `512 t + p`. -/
theorem tok_blk (c : Dev nD) (t : Fin cfg0.N) (p : Fin 512) (k : Fin 8) (r : Fin 16384) (hr : r.val = 512 * t.val + p.val) :
    (iblk m c 0 t : Vec Ideal S512x8 .f32) (ix2 p k) = (V m c main_v1 : S16384x8.Idx → EReal) (ix2 r k) := by
  obtain ⟨e0, e1, -⟩ := idx_facts t
  unfold iblk
  show V m c main_v1 (((cfg0.win 0).blk t).view.emb (ix2 p k)) = V m c main_v1 (ix2 r k)
  refine congrArg (V m c main_v1) (funext fun a => Fin.ext ?_)
  match a with
  | ⟨0, _⟩ => show win0_0.index t (0 : Fin 2) * 512 + 1 * p.val = r.val; rw [e0, hr]; omega
  | ⟨1, _⟩ => show win0_0.index t (1 : Fin 2) * 8 + 1 * k.val = k.val; rw [e1]; omega

theorem wires_blk (c : Dev nD) (t : Fin cfg0.N) (k : Fin 8) :
    (iblk m c 1 t : Vec Ideal S1x8 .f32) (ix2 (0 : Fin 1) k) = (V m c main_v3 : S1x8.Idx → EReal) (ix2 (0 : Fin 1) k) := by
  obtain ⟨-, -, e0, e1, -⟩ := idx_facts t
  unfold iblk
  show V m c main_v3 (((cfg0.win 1).blk t).view.emb (ix2 (0 : Fin 1) k)) = V m c main_v3 (ix2 (0 : Fin 1) k)
  refine congrArg (V m c main_v3) (funext fun a => Fin.ext ?_)
  match a with
  | ⟨0, _⟩ => show win0_1.index t (0 : Fin 2) * 1 + 1 * 0 = 0; rw [e0]
  | ⟨1, _⟩ => show win0_1.index t (1 : Fin 2) * 8 + 1 * k.val = k.val; rw [e1]; omega

theorem w1_blk (c : Dev nD) (t : Fin cfg0.N) (k : Fin 8) (f : Fin 4096) :
    (iblk m c 2 t : Vec Ideal S8x4096 .f32) (ix2 k f) = (V m c main_v4 : S8x4096.Idx → EReal) (ix2 k f) := by
  obtain ⟨-, -, -, -, e0, e1, -⟩ := idx_facts t
  unfold iblk
  show V m c main_v4 (((cfg0.win 2).blk t).view.emb (ix2 k f)) = V m c main_v4 (ix2 k f)
  refine congrArg (V m c main_v4) (funext fun a => Fin.ext ?_)
  match a with
  | ⟨0, _⟩ => show win0_2.index t (0 : Fin 2) * 8 + 1 * k.val = k.val; rw [e0]; omega
  | ⟨1, _⟩ => show win0_2.index t (1 : Fin 2) * 4096 + 1 * f.val = f.val; rw [e1]; omega

theorem b1_blk (c : Dev nD) (t : Fin cfg0.N) (f : Fin 4096) :
    (iblk m c 3 t : Vec Ideal S1x4096 .f32) (ix2 (0 : Fin 1) f) = (V m c main_v7 : S1x4096.Idx → EReal) (ix2 (0 : Fin 1) f) := by
  obtain ⟨-, -, -, -, -, -, e0, e1, -⟩ := idx_facts t
  unfold iblk
  show V m c main_v7 (((cfg0.win 3).blk t).view.emb (ix2 (0 : Fin 1) f)) = V m c main_v7 (ix2 (0 : Fin 1) f)
  refine congrArg (V m c main_v7) (funext fun a => Fin.ext ?_)
  match a with
  | ⟨0, _⟩ => show win0_3.index t (0 : Fin 2) * 1 + 1 * 0 = 0; rw [e0]
  | ⟨1, _⟩ => show win0_3.index t (1 : Fin 2) * 4096 + 1 * f.val = f.val; rw [e1]; omega

theorem w2_blk (c : Dev nD) (t : Fin cfg0.N) (f : Fin 4096) (e : Fin 1024) :
    (iblk m c 4 t : Vec Ideal S4096x1024 .bf16) (ix2 f e) = (V m c main_v6 : S4096x1024.Idx → EReal) (ix2 f e) := by
  obtain ⟨-, -, -, -, -, -, -, -, e0, e1, -⟩ := idx_facts t
  unfold iblk
  show V m c main_v6 (((cfg0.win 4).blk t).view.emb (ix2 f e)) = V m c main_v6 (ix2 f e)
  refine congrArg (V m c main_v6) (funext fun a => Fin.ext ?_)
  match a with
  | ⟨0, _⟩ => show win0_4.index t (0 : Fin 2) * 4096 + 1 * f.val = f.val; rw [e0]; omega
  | ⟨1, _⟩ => show win0_4.index t (1 : Fin 2) * 1024 + 1 * e.val = e.val; rw [e1]; omega

theorem b2_blk (c : Dev nD) (t : Fin cfg0.N) (e : Fin 1024) :
    (iblk m c 5 t : Vec Ideal S1x1024 .f32) (ix2 (0 : Fin 1) e) = (V m c main_v8 : S1x1024.Idx → EReal) (ix2 (0 : Fin 1) e) := by
  obtain ⟨-, -, -, -, -, -, -, -, -, -, e0, e1, -⟩ := idx_facts t
  unfold iblk
  show V m c main_v8 (((cfg0.win 5).blk t).view.emb (ix2 (0 : Fin 1) e)) = V m c main_v8 (ix2 (0 : Fin 1) e)
  refine congrArg (V m c main_v8) (funext fun a => Fin.ext ?_)
  match a with
  | ⟨0, _⟩ => show win0_5.index t (0 : Fin 2) * 1 + 1 * 0 = 0; rw [e0]
  | ⟨1, _⟩ => show win0_5.index t (1 : Fin 2) * 1024 + 1 * e.val = e.val; rw [e1]; omega

/-! ## What a point writes back, the cover, the array -/

/-- The flattened result on core `c`, from the six arguments as launched. -/
abbrev flat (c : Dev nD) : S16384x1024.Idx → EReal :=
  Gflat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the flattened result. -/
theorem flushed_eq (c : Dev nD) (t : Fin cfg0.N) :
    (dats m 0 c).flushed 6 t = ((cfg0.win 6).blk t).view.read (Elt Ideal) (flat m c) := by
  show (cfg0.win 6).cut (grid0.coords t) ((dats m 0 c).after 6 t) = _
  rw [after0_6]
  funext y
  obtain ⟨p, e, rfl⟩ : ∃ (p : Fin 512) (e : Fin 1024), y = ix2 p e := ⟨y 0, y 1, eq_ix2 y⟩
  have ht : t.val < 32 := lt_of_lt_of_eq t.isLt N_0
  have hp : p.val < 512 := p.isLt
  obtain ⟨r, hr⟩ : ∃ r : Fin 16384, r.val = 512 * t.val + p.val := ⟨⟨512 * t.val + p.val, by omega⟩, rfl⟩
  obtain ⟨b, hb⟩ : ∃ b : Fin 4, b.val = r.val / 4096 := ⟨⟨r.val / 4096, by omega⟩, rfl⟩
  obtain ⟨s, hs⟩ : ∃ s : Fin 4096, s.val = r.val % 4096 := ⟨⟨r.val % 4096, Nat.mod_lt _ (by decide)⟩, rfl⟩
  have hrb : r.val = b.val * 4096 + s.val := by rw [hb, hs]; omega
  have hemb : ((cfg0.win 6).blk t).view.emb (ix2 p e) = (ix2 r e : S16384x1024.Idx) := by
    obtain ⟨-, -, -, -, -, -, -, -, -, -, -, -, e0, e1⟩ := idx_facts t
    funext a
    apply Fin.ext
    match a with
    | ⟨0, _⟩ => show win0_6.index t (0 : Fin 2) * 512 + 1 * p.val = r.val; rw [e0, hr]; omega
    | ⟨1, _⟩ => show win0_6.index t (1 : Fin 2) * 1024 + 1 * e.val = e.val; rw [e1]; omega
  show out0_6 (iblk m c 0 t) (iblk m c 1 t) (iblk m c 2 t) (iblk m c 3 t) (iblk m c 4 t) (iblk m c 5 t) (ix2 p e)
    = flat m c (((cfg0.win 6).blk t).view.emb (ix2 p e))
  rw [hemb]
  refine (block_apply (iblk m c 0 t) (iblk m c 1 t) (iblk m c 2 t) (iblk m c 3 t) (iblk m c 4 t) (iblk m c 5 t) p e).trans ?_
  refine Eq.trans ?_ (Gflat_ix2 _ _ _ _ _ _ r e b s hrb).symm
  unfold Gc
  refine congr (congr (congrArg outp (funext fun f => ?_)) (funext fun f => ?_)) ?_
  · refine congr (congr (congrArg hid (funext fun k => ?_)) (funext fun k => ?_)) ?_
    · rw [tok_blk m c t p k r hr, HostIn.tokens_apply m c b s r hrb k, wires_blk m c t k, HostIn.wires_apply m c k]
    · rw [w1_blk m c t k f, HostIn.w1_apply m c k f]
    · rw [b1_blk m c t f, HostIn.b1_apply m c f]
  · rw [w2_blk m c t f e, HostIn.w2_apply m c f e]
  · rw [b2_blk m c t e, HostIn.b2_apply m c e]

/-- An index of the output array is in point `t`'s block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v9).slice (win0_6.rect t)).set ↔ _
  rw [View.set_slice_whole, Rect.mem_set_unit]
  exact Iff.rfl

/-- Every index of the output array is in the block of the point its token's block of 512 rows belongs to. -/
theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1]; omega

/-- The output array after the run is the flattened result. -/
theorem final (c : Dev nD) : (dats m 0 c).arrAt 6 cfg0.N = flat m c :=
  (dats m 0 c).arrAt_eq_of_cover 6 (flat m c) (fun t _ => flushed_eq m c t) cover

end Cert.Ffn.Blocks

end
-- ==== Proof.Tail.lean ====
/-
  The kernel's whole run, read as a value.

  After the launch the program re-lays the `[16384, 1024]` output array as `[4, 4096, 1024]`: entry `(b, s, e)` is the
  flat array's entry at token `b * 4096 + s` (both have the same row-major position), so the result is `G`
  (`unflatten`, `result_eq`). The run's post then names the result and keeps the six arguments (`run`).
-/
import proofs.«151217_j65481071407412_2_alg».proof.Proof.Gen.KernelIdeal.Frame
import proofs.«151217_j65481071407412_2_alg».proof.Proof.Spec
import proofs.«151217_j65481071407412_2_alg».proof.Proof.Blocks
import Idealize.ShloMosaic.Lib.StableHlo.Run
import Idealize.ShloMosaic.Lib.Pipeline.Value
import Idealize.ShloMosaic.Lib.ValueIdx

noncomputable section

namespace Cert.Ffn.Tail

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Ffn

variable (m : (ℓ : Loc nD τ sig) → Buf (Elt Ideal) ℓ) (ρ : Dev nD → PrngReg)

/-- The result on core `c`, from the six arguments as launched. -/
abbrev res (c : Dev nD) : S4x4096x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The flattened result re-laid with batch and position apart is the result. -/
theorem unflatten (c : Dev nD) :
    shapeCast S4x4096x1024 (Blocks.flat m c) shapeCasts_S16384x1024_S4x4096x1024 = res m c := by
  funext i
  obtain ⟨b, s, e, rfl⟩ : ∃ (b : Fin 4) (s : Fin 4096) (e : Fin 1024), i = ix3 b s e := ⟨i 0, i 1, i 2, eq_ix3 i⟩
  have hb : b.val < 4 := b.isLt
  have hs : s.val < 4096 := s.isLt
  obtain ⟨r, hr⟩ : ∃ r : Fin 16384, r.val = b.val * 4096 + s.val := ⟨⟨b.val * 4096 + s.val, by omega⟩, rfl⟩
  refine (shapeCast_apply _ shapeCasts_S16384x1024_S4x4096x1024 (ix3 b s e) (ix2 r e) ?_).trans ?_
  · rw [Shape.rowMajor_val_two, Shape.rowMajor_val_three]
    show r.val * 1024 + e.val = (b.val * 4096 + s.val) * 1024 + e.val
    rw [hr]
  · exact Gflat_ix2 _ _ _ _ _ _ r e b s hr

/-- The output array as the lines after the region find it. -/
theorem arr_eq (c : Dev nD) :
    Pipeline.withArrays spec0 c (V0 m c) (fun w => (dats m 0 c).arrAt w cfg0.N) (Proc.devRef .tc main_v9) = Blocks.flat m c :=
  (Pipeline.withArrays_arr spec0 launch0.win.arr_inj c _ _ 6).trans (Blocks.final m c)

/-- The program's result buffer after the run. -/
theorem result_eq (c : Dev nD) :
    Pipeline.afterTail₀ cfgs (dats m) 0 (V0 m) [hostOps1] c main_v10 = res m c := by
  unfold Pipeline.afterTail₀
  show StableHlo.after hostOps1 _ (Proc.devRef .tc main_v10) = _
  after_results
  rw [arr_eq]
  exact unflatten m c

/-- Every weakly fair execution of the kernel's program terminates with the result buffer at `G` of the arguments and
    the arguments unchanged. -/
theorem run : θ_run defs (onTc (τ := τ) (main (F := Ideal))) ⟨m, fun _ => 0, ρ⟩ (fun r => ∀ c : Dev nD,
      r.2.mem ((c.tc : Thread nD τ).loc main_v10) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Ffn.Tail

end
-- ==== Proof.lean ====
/-
  The kernel — a two-layer feed-forward block on the cosines of each token's first eight features, scaled by the
  cosines of eight wire angles — against its reference, over the extended reals.

  Both programs compute, at batch `b`, position `s`, output `e`,
      ∑ f, max (∑ k, cos (x b s k) * cos (θ k) * W1 f k + b1 f) 0 * W2 e f + b2 e.
  The kernel flattens batch and position into 16384 tokens, works on 512 of them per grid point, builds each hidden
  unit by starting from its bias and adding the eight products one at a time, and re-lays the output afterwards; the
  reference contracts with two matrix products and adds the biases after. The two differ only in the order the
  hidden unit's nine terms are added, and addition on the extended reals is commutative and associative, infinities
  included: the precondition is not used. The cosine and the maximum are the same functions in both programs; the
  change of float format before the second product is the identity on the extended reals.

  `Cert.Ffn.G` (Proof/Spec.lean) is the common value; Proof/RefIsG.lean reads the reference as `G`, Proof/Body.lean,
  Proof/HostIn.lean, Proof/Blocks.lean and Proof/Tail.lean read the kernel's run as `G`. The idealized kernel is the kernel's
  own text read over the extended reals, nothing in it rewritten, so `preserves` has no conjunct to show.
-/
import proofs.«151217_j65481071407412_2_alg».proof.Defs
import proofs.«151217_j65481071407412_2_alg».proof.Proof.Gen.Kernel
import proofs.«151217_j65481071407412_2_alg».proof.Proof.Gen.Kernel.Skeleton
import proofs.«151217_j65481071407412_2_alg».proof.Proof.Gen.Kernel.Launch
import proofs.«151217_j65481071407412_2_alg».proof.Proof.Gen.Kernel.Points
import proofs.«151217_j65481071407412_2_alg».proof.Proof.Gen.Kernel.Frame
import proofs.«151217_j65481071407412_2_alg».proof.Proof.Gen.KernelIdeal
import proofs.«151217_j65481071407412_2_alg».proof.Proof.Gen.KernelIdeal.Skeleton
import proofs.«151217_j65481071407412_2_alg».proof.Proof.Gen.KernelIdeal.Launch
import proofs.«151217_j65481071407412_2_alg».proof.Proof.Gen.KernelIdeal.Points
import proofs.«151217_j65481071407412_2_alg».proof.Proof.Gen.KernelIdeal.Frame
import proofs.«151217_j65481071407412_2_alg».proof.Proof.Gen.ReferenceIdeal
import proofs.«151217_j65481071407412_2_alg».proof.Proof.Gen.Pre_finite_inputs
import proofs.«151217_j65481071407412_2_alg».proof.Proof.Gen.ReferenceIdeal.Run
import proofs.«151217_j65481071407412_2_alg».proof.Proof.Gen.ReferenceIdeal.Read
import proofs.«151217_j65481071407412_2_alg».proof.Proof.Spec
import proofs.«151217_j65481071407412_2_alg».proof.Proof.RefIsG
import proofs.«151217_j65481071407412_2_alg».proof.Proof.Tail
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result buffer at `G` of them. -/
theorem algebraic : Cert.algebraic_KernelIdeal_ReferenceIdeal := by
  intro m ρ m' ρ' _ hagree
  refine ⟨fun c => Cert.Ffn.Tail.res m c, Cert.Ffn.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Ffn.Ref.result_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
